-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x56x56 : Shape := ⟨4, ![128, 128, 56, 56]⟩
abbrev S128 : Shape := ⟨1, ![128]⟩
abbrev S100x128 : Shape := ⟨2, ![100, 128]⟩
abbrev S_ : Shape := ⟨0, ![]⟩
abbrev S1x128 : Shape := ⟨2, ![1, 128]⟩
abbrev S128x1 : Shape := ⟨2, ![128, 1]⟩
abbrev S128x128 : Shape := ⟨2, ![128, 128]⟩

class Facts : Prop where
  bcast_S_S128x128x56x56 : S_.BroadcastsInDim S128x128x56x56 (![] : Fin 0 → Fin S128x128x56x56.rank)
  reducesTo_S128x128x56x56_S_d0_1_2_3 : S128x128x56x56.ReducesTo [0, 1, 2, 3] S_
  h_S_ : 0 < S_.numel
  bcast_S_S128 : S_.BroadcastsInDim S128 (![] : Fin 0 → Fin S128.rank)
  reducesTo_S128_S_d0 : S128.ReducesTo [0] S_
  bcast_S_S100x128 : S_.BroadcastsInDim S100x128 (![] : Fin 0 → Fin S100x128.rank)
  reducesTo_S100x128_S_d0_1 : S100x128.ReducesTo [0, 1] S_
  bcast_S128_S1x128_1 : S128.BroadcastsInDim S1x128 (![1] : Fin 1 → Fin S1x128.rank)
  bcast_S_S1x128 : S_.BroadcastsInDim S1x128 (![] : Fin 0 → Fin S1x128.rank)
  bcast_S128_S128x1_0 : S128.BroadcastsInDim S128x1 (![0] : Fin 1 → Fin S128x1.rank)
  bcast_S_S128x128 : S_.BroadcastsInDim S128x128 (![] : Fin 0 → Fin S128x128.rank)
  bcast_S1x128_S128x128_0_1 : S1x128.BroadcastsInDim S128x128 (![0, 1] : Fin 2 → Fin S128x128.rank)
  reducesTo_S128x128_S_d0_1 : S128x128.ReducesTo [0, 1] S_
  gather_S100x128_S128x1_S128x128_1_0_n_n_0_1_1128_wf : GatherDims.WF S100x128 S128x1 S128x128 [1] [0] [] [0] [] 1 ![1, 128]

variable [Facts]

def gather_S100x128_S128x1_S128x128_1_0_n_n_0_1_1128 : GatherDims S100x128 S128x1 S128x128 where
  offsetDims := [1]
  collapsedSliceDims := [0]
  operandBatchingDims := []
  startIndicesBatchingDims := []
  startIndexMap := [0]
  indexVectorDim := 1
  sliceSizes := ![1, 128]
  wf := gather_S100x128_S128x1_S128x128_1_0_n_n_0_1_1128_wf
def fn_part2 {F : FTy → Type} [FloatOps F] (main_arg1 : IVec S128 32) (main_arg5 : FVec F S128 .f32) (main_arg7 : FVec F S100x128 .f32) (main_v33 : IVec S_ 1) : IVec S_ 1 :=
  let main_v34 : FVec F S1x128 .f32 := broadcastInDim S1x128 ![1] bcast_S128_S1x128_1 main_arg5
  let main_cst_12 : FVec F S_ .f32 := constant S_ .f32 0x3F000000#32
  let main_v35 : FVec F S1x128 .f32 := broadcastInDim S1x128 ![] bcast_S_S1x128 main_cst_12
  let main_v36 : FVec F S1x128 .f32 := mulf main_v35 main_v34
  let main_c_13 : IVec S_ 32 := constantI S_ 32 0#32
  let main_v37 : IVec S128 32 := broadcastInDim S128 ![] bcast_S_S128 main_c_13
  let main_v38 : IVec S128 1 := cmpi .slt main_arg1 main_v37
  let main_c_14 : IVec S_ 32 := constantI S_ 32 100#32
  let main_v39 : IVec S128 32 := broadcastInDim S128 ![] bcast_S_S128 main_c_14
  let main_v40 : IVec S128 32 := addi main_arg1 main_v39
  let main_v41 : IVec S128 32 := select main_v38 main_v40 main_arg1
  let main_v42 : IVec S128x1 32 := broadcastInDim S128x1 ![0] bcast_S128_S128x1_0 main_v41
  let main_v43 : FVec F S128x128 .f32 := (fun x i => Host.gather gather_S100x128_S128x1_S128x128_1_0_n_n_0_1_1128 x i) main_arg7 main_v42
  let main_cst_15 : FVec F S_ .f32 := constant S_ .f32 0x3F000000#32
  let main_v44 : FVec F S128x128 .f32 := broadcastInDim S128x128 ![] bcast_S_S128x128 main_cst_15
  let main_v45 : FVec F S128x128 .f32 := mulf main_v44 main_v43
  let main_v46 : FVec F S128x128 .f32 := broadcastInDim S128x128 ![0, 1] bcast_S1x128_S128x128_0_1 main_v36
  let main_v47 : FVec F S128x128 .f32 := addf main_v46 main_v45
  let main_cst_16 : FVec F S_ .f32 := constant S_ .f32 0x00000000#32
  let main_v48 : FVec F S128x128 .f32 := broadcastInDim S128x128 ![] bcast_S_S128x128 main_cst_16
  let main_v49 : IVec S128x128 1 := cmpf .oge main_v47 main_v48
  let main_c_17 : IVec S_ 1 := constantI S_ 1 1#1
  let main_v50 : IVec S_ 1 := (fun x v => Host.reduce IntOp.andi x v reducesTo_S128x128_S_d0_1 h_S_) main_v49 main_c_17
  let main_v51 : IVec S_ 1 := andi main_v33 main_v50
  main_v51

def fn_part1 {F : FTy → Type} [FloatOps F] (main_arg1 : IVec S128 32) (main_arg5 : FVec F S128 .f32) (main_arg6 : FVec F S100x128 .f32) (main_arg7 : FVec F S100x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S100x128 .f32 := Host.absf main_arg6
  let main_cst_8 : FVec F S_ .f32 := constant S_ .f32 0x7F800000#32
  let main_v25 : FVec F S100x128 .f32 := broadcastInDim S100x128 ![] bcast_S_S100x128 main_cst_8
  let main_v26 : IVec S100x128 1 := cmpf .olt main_v24 main_v25
  let main_c_9 : IVec S_ 1 := constantI S_ 1 1#1
  let main_v27 : IVec S_ 1 := (fun x v => Host.reduce IntOp.andi x v reducesTo_S100x128_S_d0_1 h_S_) main_v26 main_c_9
  let main_v28 : IVec S_ 1 := andi main_v23 main_v27
  let main_v29 : FVec F S100x128 .f32 := Host.absf main_arg7
  let main_cst_10 : FVec F S_ .f32 := constant S_ .f32 0x7F800000#32
  let main_v30 : FVec F S100x128 .f32 := broadcastInDim S100x128 ![] bcast_S_S100x128 main_cst_10
  let main_v31 : IVec S100x128 1 := cmpf .olt main_v29 main_v30
  let main_c_11 : IVec S_ 1 := constantI S_ 1 1#1
  let main_v32 : IVec S_ 1 := (fun x v => Host.reduce IntOp.andi x v reducesTo_S100x128_S_d0_1 h_S_) main_v31 main_c_11
  let main_v33 : IVec S_ 1 := andi main_v28 main_v32
  fn_part2 (F := F) main_arg1 main_arg5 main_arg7 main_v33

def fn {F : FTy → Type} [FloatOps F] (main_arg0 : FVec F S128x128x56x56 .f32) (main_arg1 : IVec S128 32) (main_arg2 : FVec F S128 .f32) (main_arg3 : FVec F S128 .f32) (main_arg4 : FVec F S128 .f32) (main_arg5 : FVec F S128 .f32) (main_arg6 : FVec F S100x128 .f32) (main_arg7 : FVec F S100x128 .f32) : IVec S_ 1 :=
  let main_v0 : FVec F S128x128x56x56 .f32 := Host.absf main_arg0
  let main_cst : FVec F S_ .f32 := constant S_ .f32 0x7F800000#32
  let main_v1 : FVec F S128x128x56x56 .f32 := broadcastInDim S128x128x56x56 ![] bcast_S_S128x128x56x56 main_cst
  let main_v2 : IVec S128x128x56x56 1 := cmpf .olt main_v0 main_v1
  let main_c : IVec S_ 1 := constantI S_ 1 1#1
  let main_v3 : IVec S_ 1 := (fun x v => Host.reduce IntOp.andi x v reducesTo_S128x128x56x56_S_d0_1_2_3 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_v13 main_v16
-- ==== Kernel.lean ====
abbrev S128x128x56x56 : Shape := ⟨4, ![128, 128, 56, 56]⟩
abbrev S128 : Shape := ⟨1, ![128]⟩
abbrev S100x128 : Shape := ⟨2, ![100, 128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S128x128x1x1 : Shape := ⟨4, ![128, 128, 1, 1]⟩
abbrev S2x128x56x56 : Shape := ⟨4, ![2, 128, 56, 56]⟩
abbrev S2x128x1x1 : Shape := ⟨4, ![2, 128, 1, 1]⟩

abbrev nBuf : Space → Nat
  | .hbm => 58
  | .vmem => 8
  | .smem => 0
  | _ => 0

abbrev bufTy : (tb : Table) → Fin (tcTables nBuf tb) → BufTy
  | .hbm, ⟨0, _⟩ => ⟨S128x128x56x56, .f32⟩
  | .hbm, ⟨1, _⟩ => ⟨S128, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100x128, .f32⟩
  | .hbm, ⟨7, _⟩ => ⟨S100x128, .f32⟩
  | .hbm, ⟨8, _⟩ => ⟨S1x128, .f32⟩
  | .hbm, ⟨9, _⟩ => ⟨S_, .f32⟩
  | .hbm, ⟨10, _⟩ => ⟨S1x128, .f32⟩
  | .hbm, ⟨11, _⟩ => ⟨S1x128, .f32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S_, .i32⟩
  | .hbm, ⟨16, _⟩ => ⟨S128, .i32⟩
  | .hbm, ⟨17, _⟩ => ⟨S128, .i32⟩
  | .hbm, ⟨18, _⟩ => ⟨S128, .i32⟩
  | .hbm, ⟨19, _⟩ => ⟨S128x1, .i32⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S1x128, .f32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S128x1, .i32⟩
  | .hbm, ⟨38, _⟩ => ⟨S128x128, .f32⟩
  | .hbm, ⟨39, _⟩ => ⟨S_, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S_, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S1x128, .f32⟩
  | .hbm, ⟨49, _⟩ => ⟨S128x128, .f32⟩
  | .hbm, ⟨50, _⟩ => ⟨S128x128, .f32⟩
  | .hbm, ⟨51, _⟩ => ⟨S1x128, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S128x128x1x1, .f32⟩
  | .hbm, ⟨56, _⟩ => ⟨S128x128x1x1, .f32⟩
  | .hbm, ⟨57, _⟩ => ⟨S128x128x56x56, .f32⟩
  | .local _ .vmem, ⟨0, _⟩ => ⟨S2x128x56x56, .f32⟩
  | .local _ .vmem, ⟨1, _⟩ => ⟨S2x128x56x56, .f32⟩
  | .local _ .vmem, ⟨2, _⟩ => ⟨S2x128x1x1, .f32⟩
  | .local _ .vmem, ⟨3, _⟩ => ⟨S2x128x1x1, .f32⟩
  | .local _ .vmem, ⟨4, _⟩ => ⟨S2x128x1x1, .f32⟩
  | .local _ .vmem, ⟨5, _⟩ => ⟨S2x128x1x1, .f32⟩
  | .local _ .vmem, ⟨6, _⟩ => ⟨S2x128x56x56, .f32⟩
  | .local _ .vmem, ⟨7, _⟩ => ⟨S2x128x56x56, .f32⟩
  | _, _ => ⟨S128x128x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x128x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x56x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S128_S1x128_1 : S128.BroadcastsInDim S1x128 (![1] : Fin 1 → Fin S1x128.rank)
  bcast_S_S1x128 : S_.BroadcastsInDim S1x128 (![] : Fin 0 → Fin S1x128.rank)
  bcast_S_S128 : S_.BroadcastsInDim S128 (![] : Fin 0 → Fin S128.rank)
  bcast_S128_S128x1_0 : S128.BroadcastsInDim S128x1 (![0] : Fin 1 → Fin S128x1.rank)
  bcast_S_S128x128 : S_.BroadcastsInDim S128x128 (![] : Fin 0 → Fin S128x128.rank)
  bcast_S1x128_S128x128_0_1 : S1x128.BroadcastsInDim S128x128 (![0, 1] : Fin 2 → Fin S128x128.rank)
  shapeCasts_S128x128_S128x128x1x1 : S128x128.ShapeCasts S128x128x1x1
  inb_S2x128x56x56_S2x128x56x56_0_0_0_0 : ∀ a, (![0, 0, 0, 0] : Fin 4 → Nat) a + S2x128x56x56.size a ≤ S2x128x56x56.size a
  h_S2x128x56x56 : 0 < S2x128x56x56.numel
  inb_S2x128x1x1_S2x128x1x1_0_0_0_0 : ∀ a, (![0, 0, 0, 0] : Fin 4 → Nat) a + S2x128x1x1.size a ≤ S2x128x1x1.size a
  h_S2x128x1x1 : 0 < S2x128x1x1.numel
  shapeCasts_S2x128x1x1_S2x128x1x1 : S2x128x1x1.ShapeCasts S2x128x1x1
  broadcasts_S2x128x1x1_S2x128x56x56 : S2x128x1x1.Broadcasts S2x128x56x56
  gather_S100x128_S128x1_S128x128_1_0_n_n_0_1_1128_wf : GatherDims.WF S100x128 S128x1 S128x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x56x56.size a ≤ S128x128x56x56.size a
  hwx0_0 : ∀ i : grid0.Coords, EltTy.bits .f32 = 32 ∨ (Rect.block (s := S128x128x56x56) S2x128x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x128x1x1.size a ≤ S128x128x1x1.size a
  hwx0_1 : ∀ i : grid0.Coords, EltTy.bits .f32 = 32 ∨ (Rect.block (s := S128x128x1x1) S2x128x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x128x1x1.size a ≤ S128x128x1x1.size a
  hwx0_2 : ∀ i : grid0.Coords, EltTy.bits .f32 = 32 ∨ (Rect.block (s := S128x128x1x1) S2x128x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x128x56x56.size a ≤ S128x128x56x56.size a
  hwx0_3 : ∀ i : grid0.Coords, EltTy.bits .f32 = 32 ∨ (Rect.block (s := S128x128x56x56) S2x128x56x56.size (cc0_transform_3 i) (hinb0_3 i)).WholeWords (EltTy.packing .f32)

variable [Facts₀]

def gather_S100x128_S128x1_S128x128_1_0_n_n_0_1_1128 : GatherDims S100x128 S128x1 S128x128 where
  offsetDims := [1]
  collapsedSliceDims := [0]
  operandBatchingDims := []
  startIndicesBatchingDims := []
  startIndexMap := [0]
  indexVectorDim := 1
  sliceSizes := ![1, 128]
  wf := gather_S100x128_S128x1_S128x128_1_0_n_n_0_1_1128_wf

abbrev win0_0 : Pipeline.Window sig grid0 :=
  Pipeline.Window.ofSpec (Memref.whole main_arg0) S2x128x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S2x128x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S2x128x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S2x128x56x56.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x128x56x56 : Shape := ⟨4, ![128, 128, 56, 56]⟩
abbrev S128 : Shape := ⟨1, ![128]⟩
abbrev S100x128 : Shape := ⟨2, ![100, 128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S128x128x1x1 : Shape := ⟨4, ![128, 128, 1, 1]⟩
abbrev S1x128x1x1 : Shape := ⟨4, ![1, 128, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S128x128x56x56, .f32⟩
  | .hbm, ⟨1, _⟩ => ⟨S128, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100x128, .f32⟩
  | .hbm, ⟨7, _⟩ => ⟨S100x128, .f32⟩
  | .hbm, ⟨8, _⟩ => ⟨S1x128, .f32⟩
  | .hbm, ⟨9, _⟩ => ⟨S_, .f32⟩
  | .hbm, ⟨10, _⟩ => ⟨S1x128, .f32⟩
  | .hbm, ⟨11, _⟩ => ⟨S1x128, .f32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S_, .i32⟩
  | .hbm, ⟨16, _⟩ => ⟨S128, .i32⟩
  | .hbm, ⟨17, _⟩ => ⟨S128, .i32⟩
  | .hbm, ⟨18, _⟩ => ⟨S128, .i32⟩
  | .hbm, ⟨19, _⟩ => ⟨S128x1, .i32⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S1x128, .f32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S128x1, .i32⟩
  | .hbm, ⟨38, _⟩ => ⟨S128x128, .f32⟩
  | .hbm, ⟨39, _⟩ => ⟨S_, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S_, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S128x128x1x1, .f32⟩
  | .hbm, ⟨49, _⟩ => ⟨S128x128x56x56, .f32⟩
  | .hbm, ⟨50, _⟩ => ⟨S128x128x56x56, .f32⟩
  | .hbm, ⟨51, _⟩ => ⟨S128x128x1x1, .f32⟩
  | .hbm, ⟨52, _⟩ => ⟨S128x128x56x56, .f32⟩
  | .hbm, ⟨53, _⟩ => ⟨S128x128x56x56, .f32⟩
  | .hbm, ⟨54, _⟩ => ⟨S1x128x1x1, .f32⟩
  | .hbm, ⟨55, _⟩ => ⟨S128x128x56x56, .f32⟩
  | .hbm, ⟨56, _⟩ => ⟨S128x128x56x56, .f32⟩
  | .hbm, ⟨57, _⟩ => ⟨S1x128x1x1, .f32⟩
  | .hbm, ⟨58, _⟩ => ⟨S128x128x56x56, .f32⟩
  | .hbm, ⟨59, _⟩ => ⟨S128x128x56x56, .f32⟩
  | _, _ => ⟨S128x128x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S_S1x128 : S_.BroadcastsInDim S1x128 (![] : Fin 0 → Fin S1x128.rank)
  bcast_S_S128 : S_.BroadcastsInDim S128 (![] : Fin 0 → Fin S128.rank)
  bcast_S128_S128x1_0 : S128.BroadcastsInDim S128x1 (![0] : Fin 1 → Fin S128x1.rank)
  bcast_S_S128x128 : S_.BroadcastsInDim S128x128 (![] : Fin 0 → Fin S128x128.rank)
  bcast_S1x128_S128x128_0_1 : S1x128.BroadcastsInDim S128x128 (![0, 1] : Fin 2 → Fin S128x128.rank)
  bcast_S128x128_S128x128x1x1_0_1 : S128x128.BroadcastsInDim S128x128x1x1 (![0, 1] : Fin 2 → Fin S128x128x1x1.rank)
  bcast_S128x128x1x1_S128x128x56x56_0_1_2_3 : S128x128x1x1.BroadcastsInDim S128x128x56x56 (![0, 1, 2, 3] : Fin 4 → Fin S128x128x56x56.rank)
  bcast_S128_S1x128x1x1_1 : S128.BroadcastsInDim S1x128x1x1 (![1] : Fin 1 → Fin S1x128x1x1.rank)
  bcast_S1x128x1x1_S128x128x56x56_0_1_2_3 : S1x128x1x1.BroadcastsInDim S128x128x56x56 (![0, 1, 2, 3] : Fin 4 → Fin S128x128x56x56.rank)
  gather_S100x128_S128x1_S128x128_1_0_n_n_0_1_1128_wf : GatherDims.WF S100x128 S128x1 S128x128 [1] [0] [] [0] [] 1 ![1, 128]

variable [Facts₀]

def gather_S100x128_S128x1_S128x128_1_0_n_n_0_1_1128 : GatherDims S100x128 S128x1 S128x128 where
  offsetDims := [1]
  collapsedSliceDims := [0]
  operandBatchingDims := []
  startIndicesBatchingDims := []
  startIndexMap := [0]
  indexVectorDim := 1
  sliceSizes := ![1, 128]
  wf := gather_S100x128_S128x1_S128x128_1_0_n_n_0_1_1128_wf

class Facts : Prop extends Facts₀ where

variable [Facts]
-- ==== Proof.AffineLaw.lean ====
/-
  The arithmetic that joins the two programs, on the extended reals.

  Per sample `b` and channel `c` both programs form the interpolated statistics `mean` and `var` and the factor
  `inv = rsqrt (var + eps)`.  One program normalizes every pixel, `((x - mean) * inv) * w + bias`; the other folds the
  statistics into two coefficients, `scale = inv * w` and `shift = bias - mean * scale`, and applies `x * scale + shift`.
  Distributing `scale` over `x - mean` identifies them — on REAL numbers: on the extended reals `1 * ⊤ + (0 - 1 * ⊤) = ⊥`
  while `((1 - 1) * ⊤) * 1 + 0 = 0`, so the identity needs every quantity finite.  The inputs are finite by hypothesis and
  `inv` is finite because `var` is a nonnegative real and `eps` a positive one: the reciprocal square root of a positive
  real is a real.
-/
import Idealize.ShloMosaic.PureOps.Ideal

noncomputable section

namespace Cert.AffineLaw

open Idealize.ShloMosaic

/-- The interpolation weight `0.5` denotes the real `1/2`. -/
theorem ofBits_half : Ideal.ofBits .f32 0x3F000000#32 = ((1 / 2 : ℝ) : EReal) := by
  simp [Ideal.ofBits, Ideal.ieee, -EReal.coe_mul]; norm_num

/-- The guard `eps` (the single-precision neighbour of `1e-5`) denotes the positive real `10995116 / 2 ^ 40`. -/
theorem ofBits_eps : Ideal.ofBits .f32 0x3727C5AC#32 = ((10995116 / 2 ^ 40 : ℝ) : EReal) := by
  simp [Ideal.ofBits, Ideal.ieee, -EReal.coe_mul]; norm_num

/-- Half of a real plus half of a real is a real: an interpolated statistic of finite inputs is finite. -/
theorem interp_real (g t : ℝ) :
    Ideal.ofBits .f32 0x3F000000#32 * (g : EReal) + Ideal.ofBits .f32 0x3F000000#32 * (t : EReal)
      = ((1 / 2 * g + 1 / 2 * t : ℝ) : EReal) := by
  rw [ofBits_half]; push_cast; rfl

/-- The reciprocal square root of a nonnegative real plus `eps` is a real: the sum is positive. -/
theorem rsqrt_guarded_real (v : ℝ) (hv : (0 : EReal) ≤ (v : EReal)) :
    ∃ s : ℝ, Ideal.rsqrt ((v : EReal) + Ideal.ofBits .f32 0x3727C5AC#32) = (s : EReal) := by
  have hv' : (0 : ℝ) ≤ v := by exact_mod_cast hv
  have hpos : (0 : ℝ) < v + 10995116 / 2 ^ 40 := by positivity
  refine ⟨(Real.sqrt (v + 10995116 / 2 ^ 40))⁻¹, ?_⟩
  rw [ofBits_eps, ← EReal.coe_add, Ideal.rsqrt_coe, if_neg (not_lt.mpr hpos.le), if_neg hpos.ne']

/-- THE LAW: for real statistics and inputs the folded affine form is the normalized form. -/
theorem affine_law (x mean inv w bias : ℝ) :
    (x : EReal) * ((inv : EReal) * (w : EReal)) + ((bias : EReal) - (mean : EReal) * ((inv : EReal) * (w : EReal)))
      = (((x : EReal) - (mean : EReal)) * (inv : EReal)) * (w : EReal) + (bias : EReal) := by
  have h : x * (inv * w) + (bias - mean * (inv * w)) = ((x - mean) * inv) * w + bias := by ring
  exact_mod_cast h

end Cert.AffineLaw

end
-- ==== Proof.PreFacts.lean ====
/-
  What the precondition says about the argument arrays, read at the ideal instance (floats are extended reals).

  The precondition is a conjunction of eight tests, each an "all entries" reduction by "and" of an array of truth
  values. Seven of them compare |x| with the pattern of +infinity, entry by entry, for one argument array x: on the
  extended reals |x| = max x (-x) is below the top element exactly when x is a real number. The eighth compares the
  interpolated variance 0.5 * g[c] + 0.5 * t[l[n], c] (l the class labels, negative ones wrapped by the number of
  classes) with zero, entry by entry. A reduction by "and" that came out 1 met a 1 at every entry, so the seven
  arrays are real everywhere and the interpolated variance is nonnegative everywhere.
-/
import proofs.«156788_j76192719831881_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.PreFacts

open Idealize.ShloMosaic Cert.Pre_finite_inputs Cert.Pre_finite_inputs.Facts

variable [Cert.Pre_finite_inputs.Facts]

/-- The rank-0 shape has one index. -/
instance : Subsingleton S_.Idx := ⟨fun a b => funext fun d => d.elim0⟩

/-- A truth value packed into one bit is the bit 1 exactly when it is true. -/
theorem ofBool_eq_one (b : Bool) : BitVec.ofBool b = 1#1 ↔ b = true := by cases b <;> decide

/-- The pattern 0x7F800000 denotes the top element of the extended reals. -/
theorem ofBits_inf : Ideal.ofBits .f32 0x7F800000#32 = (⊤ : EReal) := by simp [Ideal.ofBits, Ideal.ieee]

/-- An extended real whose absolute value max y (-y) is below the top element is a real number. -/
theorem real_of_abs_lt_top (y : EReal) (h : Ideal.cmp .olt (max y (-y)) (⊤ : EReal) = 1#1) : ∃ r : ℝ, y = (r : EReal) := by
  induction y using EReal.rec with
  | bot => simp [Ideal.cmp] at h
  | top => simp [Ideal.cmp] at h
  | coe r => exact ⟨r, rfl⟩

/-- "All entries of x have |x| < +infinity", as the precondition prints it for an array of any shape, came out 1:
    every entry of x is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) :
    ∀ i, ∃ r : ℝ, x i = (r : EReal) := by
  intro i
  have hi := Host.reduce_andi_all _ _ hr hu _ e i
  have hi' : Ideal.cmp .olt (max (x i) (-(x i))) (Ideal.ofBits .f32 0x7F800000#32) = 1#1 := hi
  rw [ofBits_inf] at hi'
  exact real_of_abs_lt_top (x i) hi'

/-- The interpolated variance: half the running variance of channel c plus half the table's variance at the
    sample's (wrapped) label and channel c, as the precondition's program computes it. -/
def interpVar (lab : IVec S128 32) (gv : FVec Ideal S128 .f32) (cv : FVec Ideal S100x128 .f32) : FVec Ideal S128x128 .f32 :=
  let main_arg1 : IVec S128 32 := lab
  let main_arg5 : FVec Ideal S128 .f32 := gv
  let main_arg7 : FVec Ideal S100x128 .f32 := cv
  let main_v34 : FVec Ideal S1x128 .f32 := broadcastInDim S1x128 ![1] bcast_S128_S1x128_1 main_arg5
  let main_cst_12 : FVec Ideal S_ .f32 := constant (F := Ideal) S_ .f32 0x3F000000#32
  let main_v35 : FVec Ideal S1x128 .f32 := broadcastInDim S1x128 ![] bcast_S_S1x128 main_cst_12
  let main_v36 : FVec Ideal S1x128 .f32 := mulf main_v35 main_v34
  let main_c_13 : IVec S_ 32 := constantI S_ 32 0#32
  let main_v37 : IVec S128 32 := broadcastInDim S128 ![] bcast_S_S128 main_c_13
  let main_v38 : IVec S128 1 := cmpi .slt main_arg1 main_v37
  let main_c_14 : IVec S_ 32 := constantI S_ 32 100#32
  let main_v39 : IVec S128 32 := broadcastInDim S128 ![] bcast_S_S128 main_c_14
  let main_v40 : IVec S128 32 := addi main_arg1 main_v39
  let main_v41 : IVec S128 32 := select main_v38 main_v40 main_arg1
  let main_v42 : IVec S128x1 32 := broadcastInDim S128x1 ![0] bcast_S128_S128x1_0 main_v41
  let main_v43 : FVec Ideal S128x128 .f32 := (fun x i => Host.gather gather_S100x128_S128x1_S128x128_1_0_n_n_0_1_1128 x i) main_arg7 main_v42
  let main_cst_15 : FVec Ideal S_ .f32 := constant (F := Ideal) S_ .f32 0x3F000000#32
  let main_v44 : FVec Ideal S128x128 .f32 := broadcastInDim S128x128 ![] bcast_S_S128x128 main_cst_15
  let main_v45 : FVec Ideal S128x128 .f32 := mulf main_v44 main_v43
  let main_v46 : FVec Ideal S128x128 .f32 := broadcastInDim S128x128 ![0, 1] bcast_S1x128_S128x128_0_1 main_v36
  let main_v47 : FVec Ideal S128x128 .f32 := addf main_v46 main_v45
  main_v47

/-- The precondition decoded: the seven float arrays are real at every index, and the interpolated variance is
    nonnegative at every index. -/
theorem decode (x0 : FVec Ideal S128x128x56x56 .f32) (x1 : IVec S128 32) (x2 x3 x4 x5 : FVec Ideal S128 .f32)
    (x6 x7 : FVec Ideal S100x128 .f32) (h : fn (F := Ideal) x0 x1 x2 x3 x4 x5 x6 x7 = fun _ => 1#1) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) ∧ (∀ i, ∃ r : ℝ, x6 i = (r : EReal))
      ∧ (∀ i, ∃ r : ℝ, x7 i = (r : EReal)) ∧ (∀ i, (0 : EReal) ≤ interpVar x1 x5 x7 i) := by
  have e := congrFun h ValueIdx.ix0
  dsimp only [fn, fn_part1, fn_part2, andi] at e
  simp only [IntOp.andi_eq_one] at e
  obtain ⟨⟨⟨⟨⟨⟨⟨h0, h2⟩, h3⟩, h4⟩, h5⟩, h6⟩, h7⟩, hv⟩ := e
  refine ⟨real_of_all x0 _ _ _ h0, real_of_all x2 _ _ _ h2, real_of_all x3 _ _ _ h3, real_of_all x4 _ _ _ h4,
    real_of_all x5 _ _ _ h5, real_of_all x6 _ _ _ h6, real_of_all x7 _ _ _ h7, fun i => ?_⟩
  have hi := Host.reduce_andi_all _ _ _ _ _ hv i
  have hi' : Ideal.cmp .oge (interpVar x1 x5 x7 i) (Ideal.ofBits .f32 0x00000000#32) = 1#1 := hi
  rw [Ideal.ofBits_zero_f32] at hi'
  simp only [Ideal.cmp, ofBool_eq_one, decide_eq_true_eq] at hi'
  exact hi'

end Cert.PreFacts

end
-- ==== Proof.LibRowScatterGather.lean ====
/-
  Row scatters and row gathers of the host, read at an index on the extended reals.

  The shapes are the ones `jax.ops.segment_sum(data, ids)`, `x.at[rows, cols].add(v)` and `x[ids]` lower to when `ids` is
  a flat integer vector of `E` entries, presented to StableHLO as an `[E, 1]` (or `[E, 2]`) array of index vectors:

  * `segDims`   — scatter-add into `[N, C]` of updates `[E, C]` by row: result `(i, c)` is the operand's entry plus the sum of
                  `upd (e, c)` over the entries `e` whose index word, READ SIGNED, equals `i` (`hostScatterAdd_seg_apply`);
  * `vecDims`   — the same for a vector `[N]` and updates `[E]` (`hostScatterAdd_vec_apply`);
  * `denseDims` — scatter-add into a matrix `[N, M]` of updates `[E]` at index pairs: result `(i, j)` adds the updates of the
                  entries whose two index words are `i` and `j` (`hostScatterAdd_dense_apply`);
  * `rowDims`   — gather of rows of `[N, C]`: result `(e, c)` is the operand at row `ids e` read signed and CLAMPED into
                  `[0, N − 1]`, column `c` (`gather_rows_apply`);
  * `vecGDims`  — the same for a vector `[N]` (`gather_vec_apply`).

  A scatter drops an update whose index is out of range and a gather clamps it, so the two treat an out-of-range index
  differently; on indices in range (`toInt_eq_of_lt` turns the signed reading of a word below `N` into the word's value)
  both address row `ids e`.  The general fact underneath the scatters is `resultIdx?_eq_some_iff`: an update lands on an
  operand index exactly when start plus window coordinate equals that index's coordinate on every axis.
  The dimension numbers are stated with their well-formedness as a hypothesis, decided on a program's literal shapes; a
  printed record with these dimension numbers is definitionally the corresponding `…Dims N … wf`.
-/
import Idealize.ShloMosaic.Lib.ValueIdx
import Idealize.ShloMosaic.PureOps.Ideal
import Mathlib.Algebra.BigOperators.Group.Finset.Piecewise

noncomputable section

namespace LibRowScatterGather

open Idealize.ShloMosaic Idealize.ShloMosaic.ValueIdx

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- For any scatter: update `j` lands on operand index `r` exactly when start plus window coordinate is `r`'s coordinate on
    every axis (and is dropped otherwise). -/
theorem resultIdx?_eq_some_iff {s si u : Shape} (d : ScatterDims s si u) {w : Nat} (j : u.Idx) (idx : IVec si w) (r : s.Idx) :
    d.resultIdx? j idx = some r ↔ ∀ a, d.start j idx a + d.window j a = ((r a).val : Int) := by
  unfold ScatterDims.resultIdx?
  split
  · rename_i h
    constructor
    · intro heq a
      have := congrFun (Option.some.inj heq) a
      rw [← this]
      exact (Int.toNat_of_nonneg (h a).1).symm
    · intro hall
      refine congrArg some (funext fun a => Fin.ext ?_)
      show (d.start j idx a + d.window j a).toNat = (r a).val
      rw [hall a]; rfl
  · rename_i h
    constructor
    · intro h'; cases h'
    · intro hall; exfalso; apply h; intro a; rw [hall a]
      exact ⟨Int.natCast_nonneg _, by exact_mod_cast (r a).isLt⟩

/-! ## Scatter-add by row into a matrix (a segment sum) -/

section Seg

/-- The dimension numbers of a scatter of updates `[E, C]` into an operand `[N, C]` at row indices `[E, 1]`. -/
abbrev segDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem start0 (idx : IVec ⟨2, ![E, 1]⟩ w) (e : Fin E) (c : Fin C) :
    (segDims N E C wf).start (ix2 e c) idx 0 = (idx (ix2 e 0)).toInt := by
  unfold ScatterDims.start
  rw [dif_pos (show (0 : Fin 2) ∈ (segDims N E C wf).scatterDimsToOperandDims from List.mem_singleton.mpr rfl)]
  refine congrArg (fun k => (idx k).toInt) ?_
  funext b; refine Fin.ext ?_
  match b with
  | ⟨0, _⟩ => rfl
  | ⟨1, _⟩ => rfl

theorem start1 (idx : IVec ⟨2, ![E, 1]⟩ w) (j : (⟨2, ![E, C]⟩ : Shape).Idx) :
    (segDims N E C wf).start j idx 1 = 0 := by
  unfold ScatterDims.start
  have h : (1 : Fin 2) ∉ (segDims N E C wf).scatterDimsToOperandDims := (show (1 : Fin 2) ∉ ([0] : List (Fin 2)) from by decide)
  rw [dif_neg h]

theorem window0 (j : (⟨2, ![E, C]⟩ : Shape).Idx) : (segDims N E C wf).window j 0 = 0 := by
  unfold ScatterDims.window
  have h : (0 : Fin 2) ∉ (segDims N E C wf).sKept :=
    (show (0 : Fin 2) ∉ ((List.finRange 2).filter (· ∉ ([0] : List (Fin 2)))) from by decide)
  rw [dif_neg h]

theorem window1 (e : Fin E) (c : Fin C) : (segDims N E C wf).window (ix2 e c) 1 = c.val := by
  unfold ScatterDims.window
  have h : (1 : Fin 2) ∈ (segDims N E C wf).sKept :=
    (show (1 : Fin 2) ∈ ((List.finRange 2).filter (· ∉ ([0] : List (Fin 2)))) from by decide)
  rw [dif_pos h]
  rfl

theorem resultIdx?_seg_iff (idx : IVec ⟨2, ![E, 1]⟩ w) (e : Fin E) (c : Fin C) (i : Fin N) (c' : Fin C) :
    (segDims N E C wf).resultIdx? (ix2 e c) idx = some (ix2 i c') ↔ (idx (ix2 e 0)).toInt = (i.val : Int) ∧ c = c' := by
  rw [resultIdx?_eq_some_iff]
  constructor
  · intro h
    have h0 : (segDims N E C wf).start (ix2 e c) idx 0 + (segDims N E C wf).window (ix2 e c) 0 = ((i.val : ℕ) : ℤ) := h 0
    have h1 : (segDims N E C wf).start (ix2 e c) idx 1 + (segDims N E C wf).window (ix2 e c) 1 = ((c'.val : ℕ) : ℤ) := h 1
    rw [start0, window0] at h0
    rw [start1, window1] at h1
    refine ⟨by simpa using h0, Fin.ext ?_⟩
    have : ((c.val : Int)) = (c'.val : Int) := by simpa using h1
    exact_mod_cast this
  · rintro ⟨h0, rfl⟩ a
    match a with
    | ⟨0, _⟩ => show (segDims N E C wf).start (ix2 e c) idx 0 + (segDims N E C wf).window (ix2 e c) 0 = _; rw [start0, window0, h0]; simp
    | ⟨1, _⟩ => show (segDims N E C wf).start (ix2 e c) idx 1 + (segDims N E C wf).window (ix2 e c) 1 = _; rw [start1, window1]; simp

/-- THE SEGMENT SUM READ AT `(i, c)`: the operand there plus the updates of the rows whose index word, read signed, is `i`. -/
theorem hostScatterAdd_seg_apply (x : (⟨2, ![N, C]⟩ : Shape).Idx → EReal) (idx : IVec ⟨2, ![E, 1]⟩ w)
    (upd : (⟨2, ![E, C]⟩ : Shape).Idx → EReal) (i : Fin N) (c : Fin C) :
    Ideal.hostScatterAdd (segDims N E C wf) x idx upd (ix2 i c)
      = x (ix2 i c) + ∑ e ∈ Finset.univ.filter (fun e : Fin E => (idx (ix2 e 0)).toInt = (i.val : Int)), upd (ix2 e c) := by
  unfold Ideal.hostScatterAdd
  refine congrArg (x (ix2 i c) + ·) ?_
  rw [Finset.sum_filter, sum_idx2, Finset.sum_filter]
  refine Finset.sum_congr rfl fun e _ => ?_
  simp only [resultIdx?_seg_iff]
  by_cases hi : (idx (ix2 e 0)).toInt = (i.val : Int)
  · simp only [hi, true_and, if_true]
    rw [Finset.sum_ite_eq' Finset.univ c fun b => upd (ix2 e b), if_pos (Finset.mem_univ _)]
  · simp only [hi, false_and, if_false, Finset.sum_const_zero]

end Seg

/-! ## Scatter-add into a vector -/

section Vec

/-- The dimension numbers of a scatter of updates `[E]` into an operand `[N]` at indices `[E, 1]`. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem vec_start0 (idx : IVec ⟨2, ![E, 1]⟩ w) (e : Fin E) :
    (vecDims N E wf).start (ix1 e) idx 0 = (idx (ix2 e 0)).toInt := by
  unfold ScatterDims.start
  rw [dif_pos (show (0 : Fin 1) ∈ (vecDims N E wf).scatterDimsToOperandDims from List.mem_singleton.mpr rfl)]
  refine congrArg (fun k => (idx k).toInt) ?_
  funext b; refine Fin.ext ?_
  match b with
  | ⟨0, _⟩ => rfl
  | ⟨1, _⟩ => rfl

theorem vec_window0 (j : (⟨1, ![E]⟩ : Shape).Idx) : (vecDims N E wf).window j 0 = 0 := by
  unfold ScatterDims.window
  have h : (0 : Fin 1) ∉ (vecDims N E wf).sKept :=
    (show (0 : Fin 1) ∉ ((List.finRange 1).filter (· ∉ ([0] : List (Fin 1)))) from by decide)
  rw [dif_neg h]

theorem resultIdx?_vec_iff (idx : IVec ⟨2, ![E, 1]⟩ w) (e : Fin E) (i : Fin N) :
    (vecDims N E wf).resultIdx? (ix1 e) idx = some (ix1 i) ↔ (idx (ix2 e 0)).toInt = (i.val : Int) := by
  rw [resultIdx?_eq_some_iff]
  constructor
  · intro h
    have h0 : (vecDims N E wf).start (ix1 e) idx 0 + (vecDims N E wf).window (ix1 e) 0 = ((i.val : ℕ) : ℤ) := h 0
    rw [vec_start0, vec_window0] at h0
    simpa using h0
  · intro h0 a
    obtain rfl : a = 0 := Subsingleton.elim _ _
    show (vecDims N E wf).start (ix1 e) idx 0 + (vecDims N E wf).window (ix1 e) 0 = ((i.val : ℕ) : ℤ)
    rw [vec_start0, vec_window0, h0]; simp

/-- THE VECTOR SCATTER-ADD READ AT `i`: the operand there plus the updates of the entries whose index word, read signed, is `i`. -/
theorem hostScatterAdd_vec_apply (x : (⟨1, ![N]⟩ : Shape).Idx → EReal) (idx : IVec ⟨2, ![E, 1]⟩ w)
    (upd : (⟨1, ![E]⟩ : Shape).Idx → EReal) (i : Fin N) :
    Ideal.hostScatterAdd (vecDims N E wf) x idx upd (ix1 i)
      = x (ix1 i) + ∑ e ∈ Finset.univ.filter (fun e : Fin E => (idx (ix2 e 0)).toInt = (i.val : Int)), upd (ix1 e) := by
  unfold Ideal.hostScatterAdd
  refine congrArg (x (ix1 i) + ·) ?_
  rw [Finset.sum_filter, sum_idx1, Finset.sum_filter]
  refine Finset.sum_congr rfl fun e _ => ?_
  simp only [resultIdx?_vec_iff]

end Vec

/-! ## Scatter-add into a matrix at index pairs (a dense adjacency matrix from an edge list) -/

section Dense

/-- The dimension numbers of a scatter of updates `[E]` into an operand `[N, M]` at index pairs `[E, 2]`. -/
abbrev denseDims (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

variable {N M E w : Nat} (wf : ScatterDims.WF ⟨2, ![N, M]⟩ ⟨2, ![E, 2]⟩ ⟨1, ![E]⟩ [] [0, 1] [0, 1] 1)

theorem dense_start0 (idx : IVec ⟨2, ![E, 2]⟩ w) (e : Fin E) :
    (denseDims N M E wf).start (ix1 e) idx 0 = (idx (ix2 e 0)).toInt := by
  unfold ScatterDims.start
  have h : (0 : Fin 2) ∈ (denseDims N M E wf).scatterDimsToOperandDims := (show (0 : Fin 2) ∈ ([0, 1] : List (Fin 2)) from by decide)
  rw [dif_pos h]
  refine congrArg (fun k => (idx k).toInt) ?_
  funext b; refine Fin.ext ?_
  match b with
  | ⟨0, _⟩ => rfl
  | ⟨1, _⟩ => rfl

theorem dense_start1 (idx : IVec ⟨2, ![E, 2]⟩ w) (e : Fin E) :
    (denseDims N M E wf).start (ix1 e) idx 1 = (idx (ix2 e 1)).toInt := by
  unfold ScatterDims.start
  have h : (1 : Fin 2) ∈ (denseDims N M E wf).scatterDimsToOperandDims := (show (1 : Fin 2) ∈ ([0, 1] : List (Fin 2)) from by decide)
  rw [dif_pos h]
  refine congrArg (fun k => (idx k).toInt) ?_
  funext b; refine Fin.ext ?_
  match b with
  | ⟨0, _⟩ => rfl
  | ⟨1, _⟩ => rfl

theorem dense_window (j : (⟨1, ![E]⟩ : Shape).Idx) (a : Fin 2) : (denseDims N M E wf).window j a = 0 := by
  unfold ScatterDims.window
  have h : a ∉ (denseDims N M E wf).sKept := by
    have : ∀ b : Fin 2, b ∉ ((List.finRange 2).filter (· ∉ ([0, 1] : List (Fin 2)))) := by decide
    exact this a
  rw [dif_neg h]

theorem resultIdx?_dense_iff (idx : IVec ⟨2, ![E, 2]⟩ w) (e : Fin E) (i : Fin N) (j : Fin M) :
    (denseDims N M E wf).resultIdx? (ix1 e) idx = some (ix2 i j)
      ↔ (idx (ix2 e 0)).toInt = (i.val : Int) ∧ (idx (ix2 e 1)).toInt = (j.val : Int) := by
  rw [resultIdx?_eq_some_iff]
  constructor
  · intro h
    have h0 : (denseDims N M E wf).start (ix1 e) idx 0 + (denseDims N M E wf).window (ix1 e) 0 = ((i.val : ℕ) : ℤ) := h 0
    have h1 : (denseDims N M E wf).start (ix1 e) idx 1 + (denseDims N M E wf).window (ix1 e) 1 = ((j.val : ℕ) : ℤ) := h 1
    rw [dense_start0, dense_window] at h0
    rw [dense_start1, dense_window] at h1
    exact ⟨by simpa using h0, by simpa using h1⟩
  · rintro ⟨h0, h1⟩ a
    match a with
    | ⟨0, _⟩ =>
      show (denseDims N M E wf).start (ix1 e) idx 0 + (denseDims N M E wf).window (ix1 e) 0 = _
      rw [dense_start0, dense_window, h0]; simp
    | ⟨1, _⟩ =>
      show (denseDims N M E wf).start (ix1 e) idx 1 + (denseDims N M E wf).window (ix1 e) 1 = _
      rw [dense_start1, dense_window, h1]; simp

/-- THE MATRIX SCATTER-ADD READ AT `(i, j)`: the operand there plus the updates of the entries whose two index words, read
    signed, are `i` and `j`. -/
theorem hostScatterAdd_dense_apply (x : (⟨2, ![N, M]⟩ : Shape).Idx → EReal) (idx : IVec ⟨2, ![E, 2]⟩ w)
    (upd : (⟨1, ![E]⟩ : Shape).Idx → EReal) (i : Fin N) (j : Fin M) :
    Ideal.hostScatterAdd (denseDims N M E wf) x idx upd (ix2 i j)
      = x (ix2 i j) + ∑ e ∈ Finset.univ.filter (fun e : Fin E =>
          (idx (ix2 e 0)).toInt = (i.val : Int) ∧ (idx (ix2 e 1)).toInt = (j.val : Int)), upd (ix1 e) := by
  unfold Ideal.hostScatterAdd
  refine congrArg (x (ix2 i j) + ·) ?_
  rw [Finset.sum_filter, sum_idx1, Finset.sum_filter]
  refine Finset.sum_congr rfl fun e _ => ?_
  simp only [resultIdx?_dense_iff]

end Dense

/-! ## Gather of rows -/

section Rows
variable {α : Type}

/-- The dimension numbers of a gather of rows of `[N, C]` at row indices `[E, 1]`, result `[E, C]`. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `ids e` — read signed and clamped into `[0, N − 1]` — and column `c`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N C E wf) x idx (ix2 e c)
      = x (ix2 ⟨min (idx (ix2 e 0)).toInt.toNat (N - 1), by omega⟩ c) := by
  unfold Host.gather
  refine congrArg x ?_
  funext a
  refine Fin.ext ?_
  have hk1 : (1 : Fin 2) ∈ (rowDims N C E wf).sKept :=
    ((rowDims N C E wf).mem_sKept 1).mpr ⟨(show (1 : Fin 2) ∉ ([0] : List (Fin 2)) from by decide), List.not_mem_nil⟩
  have hk0 : (0 : Fin 2) ∉ (rowDims N C E wf).sKept := fun h =>
    (((rowDims N C E wf).mem_sKept 0).mp h).1 (List.mem_singleton.mpr rfl)
  match a with
  | ⟨0, _⟩ =>
    show (rowDims N C E wf).start (ix2 e c) idx 0 + (rowDims N C E wf).batchCoord (ix2 e c) 0 + (rowDims N C E wf).offCoord (ix2 e c) 0 = _
    rw [GatherDims.batchCoord_eq_zero _ _ _ List.not_mem_nil, GatherDims.offCoord_eq_zero _ _ _ hk0]
    simp only [Nat.add_zero]
    unfold GatherDims.start
    rw [dif_pos (show (0 : Fin 2) ∈ (rowDims N C E wf).startIndexMap from List.mem_singleton.mpr rfl)]
    have hsi : (rowDims N C E wf).siIdx (ix2 e c) ⟨List.idxOf (0 : Fin 2) (rowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C E wf).start (ix2 e c) idx 1 + (rowDims N C E wf).batchCoord (ix2 e c) 1 + (rowDims N C E wf).offCoord (ix2 e c) 1 = _
    rw [GatherDims.batchCoord_eq_zero _ _ _ List.not_mem_nil]
    have hs : (rowDims N C E wf).start (ix2 e c) idx 1 = 0 := by
      unfold GatherDims.start
      have h : (1 : Fin 2) ∉ (rowDims N C E wf).startIndexMap := (show (1 : Fin 2) ∉ ([0] : List (Fin 2)) from by decide)
      rw [dif_neg h]
    have ho : (rowDims N C E wf).offCoord (ix2 e c) 1 = c.val := by
      unfold GatherDims.offCoord
      rw [dif_pos hk1]
      rfl
    rw [hs, ho]; simp

end Rows

/-! ## Gather from a vector -/

section VecG
variable {α : Type}

/-- The dimension numbers of a gather from a vector `[N]` at indices `[E, 1]`, result `[E]`. -/
abbrev vecGDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `ids e`, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGDims N E wf) x idx (ix1 e) = x (ix1 ⟨min (idx (ix2 e 0)).toInt.toNat (N - 1), by omega⟩) := by
  unfold Host.gather
  refine congrArg x ?_
  funext a
  obtain rfl : a = 0 := Subsingleton.elim _ _
  refine Fin.ext ?_
  show (vecGDims N E wf).start (ix1 e) idx 0 + (vecGDims N E wf).batchCoord (ix1 e) 0 + (vecGDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGDims N E wf).startIndexMap from List.mem_singleton.mpr rfl)]
  have hsi : (vecGDims N E wf).siIdx (ix1 e) ⟨List.idxOf (0 : Fin 1) (vecGDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecG

/-! ## An index word in range -/

/-- A 32-bit word that is nonnegative as a signed integer and below `n` reads, signed, as a natural number below `n`:
    the scatter's test `toInt = i` and the gather's clamp `min toNat (n − 1)` then name the same row. -/
theorem clamp_eq_of_inRange {n : Nat} (v : BitVec 32) (i : Fin n) (h : v.toInt = (i.val : Int)) :
    min v.toInt.toNat (n - 1) = i.val := by
  rw [h]; have := i.isLt; simp only [Int.toNat_natCast]; omega

end LibRowScatterGather
-- ==== Proof.RefRead.lean ====
/-
  The reference program read at an index, at the extended reals.

  Its result at sample `b`, channel `c`, pixel `(h, w)` is `((x - mean b c) * inv b c) * weight c + bias c`, where the
  two statistics are arrays over `(b, c)` that the program computes first:
    `mean b c = 1/2 * global_mean c + 1/2 * class_mean (row b) c`,
    `var  b c = 1/2 * global_var c  + 1/2 * class_var  (row b) c`,   `inv b c = rsqrt (var b c + eps)`,
  `row b` being sample `b`'s label wrapped and clamped into the table's 100 rows.  Which row it is never matters below:
  every entry of a gathered table is SOME entry of the table, so it is finite when the table is.
-/
import proofs.«156788_j76192719831881_2_alg».proof.Proof.Gen.ReferenceIdeal.Read
import proofs.«156788_j76192719831881_2_alg».proof.Proof.LibRowScatterGather
import Idealize.ShloMosaic.Lib.ValueIdx
import Idealize.ShloMosaic.PureOps.Ideal

noncomputable section

namespace Cert.ReferenceIdeal.RefValue

open Cert.ReferenceIdeal Cert.ReferenceIdeal.Gen Cert.ReferenceIdeal.Read Cert.ReferenceIdeal.Facts₀
open Idealize.ShloMosaic Idealize.ShloMosaic.ValueIdx

/-- THE RESULT AT AN INDEX: the normalized form over the two statistics' stages, read at `(b, c)`. -/
theorem result_apply (x0 : (⟨S128x128x56x56, .f32⟩ : BufTy).Contents (Elt Ideal)) (x1 : (⟨S128, .i32⟩ : BufTy).Contents (Elt Ideal))
    (x2 x3 x4 x5 : (⟨S128, .f32⟩ : BufTy).Contents (Elt Ideal)) (x6 x7 : (⟨S100x128, .f32⟩ : BufTy).Contents (Elt Ideal))
    (b c : Fin 128) (h w : Fin 56) :
    val_main_v42 (F := Ideal) x0 x1 x2 x3 x4 x5 x6 x7 (ix4 b c h w)
      = (((x0 (ix4 b c h w) : EReal) - (val_main_v13 (F := Ideal) x1 x4 x6 (ix2 b c) : EReal))
          * (val_main_v30 (F := Ideal) x1 x5 x7 (ix2 b c) : EReal)) * (x2 (ix1 c) : EReal) + (x3 (ix1 c) : EReal) := by
  have e13 : idx_main_v31 (idx_main_v32 (ix4 b c h w)) = ix2 b c :=
    funext fun a => Fin.ext (by match a with | ⟨0, _⟩ => rfl | ⟨1, _⟩ => rfl)
  have e30 : idx_main_v34 (idx_main_v35 (ix4 b c h w)) = ix2 b c :=
    funext fun a => Fin.ext (by match a with | ⟨0, _⟩ => rfl | ⟨1, _⟩ => rfl)
  have e2 : idx_main_v37 (idx_main_v38 (ix4 b c h w)) = ix1 c :=
    funext fun a => Fin.ext (by match a with | ⟨0, _⟩ => rfl)
  have e3 : idx_main_v40 (idx_main_v41 (ix4 b c h w)) = ix1 c :=
    funext fun a => Fin.ext (by match a with | ⟨0, _⟩ => rfl)
  rw [val_main_v42_apply, val_main_v41_apply, val_main_v40_apply, val_main_v39_apply, val_main_v38_apply,
    val_main_v37_apply, val_main_v36_apply, val_main_v35_apply, val_main_v34_apply, val_main_v33_apply,
    val_main_v32_apply, val_main_v31_apply, e13, e30, e2, e3]
  rfl

/-- THE MEAN AT `(b, c)`: half the global mean of channel `c` plus half of some row's class mean of channel `c`. -/
theorem mean_apply (x1 : (⟨S128, .i32⟩ : BufTy).Contents (Elt Ideal)) (x4 : (⟨S128, .f32⟩ : BufTy).Contents (Elt Ideal))
    (x6 : (⟨S100x128, .f32⟩ : BufTy).Contents (Elt Ideal)) (b c : Fin 128) :
    ∃ r : Fin 100, (val_main_v13 (F := Ideal) x1 x4 x6 (ix2 b c) : EReal)
      = Ideal.ofBits .f32 0x3F000000#32 * (x4 (ix1 c) : EReal) + Ideal.ofBits .f32 0x3F000000#32 * (x6 (ix2 r c) : EReal) := by
  refine ⟨⟨min ((val_main_v8 (F := Ideal) x1) (ix2 b 0)).toInt.toNat (100 - 1), by omega⟩, ?_⟩
  have e0 : idx_main_v0 (idx_main_v12 (ix2 b c)) = ix1 c :=
    funext fun a => Fin.ext (by match a with | ⟨0, _⟩ => rfl)
  have hg : val_main_v9 (F := Ideal) x1 x6 (ix2 b c)
      = x6 (ix2 ⟨min ((val_main_v8 (F := Ideal) x1) (ix2 b 0)).toInt.toNat (100 - 1), by omega⟩ c) :=
    LibRowScatterGather.gather_rows_apply (N := 100) (C := 128) (E := 128) (w := 32) (by decide)
      Facts₀.gather_S100x128_S128x1_S128x128_1_0_n_n_0_1_1128_wf x6 (val_main_v8 (F := Ideal) x1) b c
  rw [val_main_v13_apply, val_main_v12_apply, val_main_v2_apply, val_main_v1_apply, val_main_cst_apply, val_main_v0_apply,
    val_main_v11_apply, val_main_v10_apply, val_main_cst_1_apply, e0, hg]
  rfl

/-- THE VARIANCE AT `(b, c)`: half the global variance of channel `c` plus half of some row's class variance. -/
theorem var_apply (x1 : (⟨S128, .i32⟩ : BufTy).Contents (Elt Ideal)) (x5 : (⟨S128, .f32⟩ : BufTy).Contents (Elt Ideal))
    (x7 : (⟨S100x128, .f32⟩ : BufTy).Contents (Elt Ideal)) (b c : Fin 128) :
    ∃ r : Fin 100, (val_main_v27 (F := Ideal) x1 x5 x7 (ix2 b c) : EReal)
      = Ideal.ofBits .f32 0x3F000000#32 * (x5 (ix1 c) : EReal) + Ideal.ofBits .f32 0x3F000000#32 * (x7 (ix2 r c) : EReal) := by
  refine ⟨⟨min ((val_main_v22 (F := Ideal) x1) (ix2 b 0)).toInt.toNat (100 - 1), by omega⟩, ?_⟩
  have e0 : idx_main_v14 (idx_main_v26 (ix2 b c)) = ix1 c :=
    funext fun a => Fin.ext (by match a with | ⟨0, _⟩ => rfl)
  have hg : val_main_v23 (F := Ideal) x1 x7 (ix2 b c)
      = x7 (ix2 ⟨min ((val_main_v22 (F := Ideal) x1) (ix2 b 0)).toInt.toNat (100 - 1), by omega⟩ c) :=
    LibRowScatterGather.gather_rows_apply (N := 100) (C := 128) (E := 128) (w := 32) (by decide)
      Facts₀.gather_S100x128_S128x1_S128x128_1_0_n_n_0_1_1128_wf x7 (val_main_v22 (F := Ideal) x1) b c
  rw [val_main_v27_apply, val_main_v26_apply, val_main_v16_apply, val_main_v15_apply, val_main_cst_2_apply, val_main_v14_apply,
    val_main_v25_apply, val_main_v24_apply, val_main_cst_5_apply, e0, hg]
  rfl

/-- THE FACTOR AT AN INDEX: the reciprocal square root of the variance plus `eps`. -/
theorem inv_apply (x1 : (⟨S128, .i32⟩ : BufTy).Contents (Elt Ideal)) (x5 : (⟨S128, .f32⟩ : BufTy).Contents (Elt Ideal))
    (x7 : (⟨S100x128, .f32⟩ : BufTy).Contents (Elt Ideal)) (p : S128x128.Idx) :
    (val_main_v30 (F := Ideal) x1 x5 x7 p : EReal)
      = Ideal.rsqrt ((val_main_v27 (F := Ideal) x1 x5 x7 p : EReal) + Ideal.ofBits .f32 0x3727C5AC#32) := by
  rw [val_main_v30_apply, val_main_v29_apply, val_main_v28_apply, val_main_cst_6_apply]
  rfl

end Cert.ReferenceIdeal.RefValue

end
-- ==== Proof.KerHost.lean ====
/-
  The kernel program's host side, read at an index at the extended reals.

  Before its one region the kernel program computes, per sample `b` and channel `c`, the same interpolated `mean b c` and
  the same factor `inv b c = rsqrt (var b c + eps)` as the reference — the same operations on the same arguments — and
  folds them into the two coefficient arrays the region reads, reshaped from `[128, 128]` to `[128, 128, 1, 1]`:
    `scale (b, c, 0, 0) = inv b c * weight c`,   `shift (b, c, 0, 0) = bias c - mean b c * (inv b c * weight c)`.
-/
import proofs.«156788_j76192719831881_2_alg».proof.Proof.Gen.KernelIdeal.Frame
import proofs.«156788_j76192719831881_2_alg».proof.Proof.Gen.ReferenceIdeal.Read
import Idealize.ShloMosaic.Lib.Pipeline.Value
import Idealize.ShloMosaic.Lib.ValueIdx
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The kernel program's argument arrays on device `c`, under their shapes. -/
abbrev aX (c : Dev nD) : FVec Ideal S128x128x56x56 .f32 := m ((c : Thread nD τ).loc main_arg0)
abbrev aLab (c : Dev nD) : IVec S128 32 := m ((c : Thread nD τ).loc main_arg1)
abbrev aW (c : Dev nD) : FVec Ideal S128 .f32 := m ((c : Thread nD τ).loc main_arg2)
abbrev aB (c : Dev nD) : FVec Ideal S128 .f32 := m ((c : Thread nD τ).loc main_arg3)
abbrev aGM (c : Dev nD) : FVec Ideal S128 .f32 := m ((c : Thread nD τ).loc main_arg4)
abbrev aGV (c : Dev nD) : FVec Ideal S128 .f32 := m ((c : Thread nD τ).loc main_arg5)
abbrev aCM (c : Dev nD) : FVec Ideal S100x128 .f32 := m ((c : Thread nD τ).loc main_arg6)
abbrev aCV (c : Dev nD) : FVec Ideal S100x128 .f32 := m ((c : Thread nD τ).loc main_arg7)

/-- The two statistics of the kernel program's arguments: the reference's stages at the same arrays. -/
abbrev meanK (c : Dev nD) : FVec Ideal S128x128 .f32 :=
  Cert.ReferenceIdeal.Read.val_main_v13 (F := Ideal) (aLab m c) (aGM m c) (aCM m c)
abbrev invK (c : Dev nD) : FVec Ideal S128x128 .f32 :=
  Cert.ReferenceIdeal.Read.val_main_v30 (F := Ideal) (aLab m c) (aGV m c) (aCV m c)

/-- A per-channel vector spread over the samples: `[128] → [1, 128] → [128, 128]`. -/
abbrev chan (v : FVec Ideal S128 .f32) : FVec Ideal S128x128 .f32 :=
  broadcastInDim S128x128 ![0, 1] bcast_S1x128_S128x128_0_1 (broadcastInDim S1x128 ![1] bcast_S128_S1x128_1 v)

/-- Spread over the samples, entry `(b, c)` is the vector's entry `c`. -/
theorem chan_apply (v : FVec Ideal S128 .f32) (b c : Fin 128) : chan v (ix2 b c) = v (ix1 c) := by
  refine (broadcastInDim_apply _ bcast_S1x128_S128x128_0_1 _ (ix2 b c) (ix2 (0 : Fin 1) c) (fun a => match a with
    | ⟨0, _⟩ => by show 0 = if (1 : Nat) = 1 then 0 else b.val; rw [if_pos rfl]
    | ⟨1, _⟩ => by show c.val = if (128 : Nat) = 1 then 0 else c.val; rw [if_neg (by decide)])).trans ?_
  exact broadcastInDim_apply _ bcast_S128_S1x128_1 v (ix2 (0 : Fin 1) c) (ix1 c) (fun a => match a with
    | ⟨0, _⟩ => by show c.val = if (128 : Nat) = 1 then 0 else c.val; rw [if_neg (by decide)])

/-- A `[128, 128]` array reshaped to `[128, 128, 1, 1]`, read at `(b, c, 0, 0)`, is the array at `(b, c)`. -/
theorem unit_axes_apply (v : FVec Ideal S128x128 .f32) (b c : Fin 128) :
    shapeCast S128x128x1x1 v shapeCasts_S128x128_S128x128x1x1 (ix4 b c (0 : Fin 1) (0 : Fin 1)) = v (ix2 b c) :=
  shapeCast_apply v shapeCasts_S128x128_S128x128x1x1 (ix4 b c (0 : Fin 1) (0 : Fin 1)) (ix2 b c) (by
    rw [Shape.rowMajor_val_two, Shape.rowMajor_val_four]
    show b.val * 128 + c.val = ((b.val * 128 + c.val) * 1 + 0) * 1 + 0
    omega)

set_option maxRecDepth 8192 in
set_option maxHeartbeats 2000000 in
/-- THE SCALE ARRAY as the region finds it: the factor times the weight, reshaped. -/
theorem scale_eq (c : Dev nD) :
    (V m c main_v38 : S128x128x1x1.Idx → EReal)
      = shapeCast S128x128x1x1 (mulf (invK m c) (chan (aW m c))) shapeCasts_S128x128_S128x128x1x1 := by
  dsimp only [Gen.V, Gen.hostOps0]
  after_results_simp
  rfl

set_option maxRecDepth 8192 in
set_option maxHeartbeats 2000000 in
/-- THE SHIFT ARRAY as the region finds it: the bias minus the mean times the scale, reshaped. -/
theorem shift_eq (c : Dev nD) :
    (V m c main_v39 : S128x128x1x1.Idx → EReal)
      = shapeCast S128x128x1x1
          (subf (chan (aB m c)) (mulf (meanK m c) (mulf (invK m c) (chan (aW m c)))))
          shapeCasts_S128x128_S128x128x1x1 := by
  dsimp only [Gen.V, Gen.hostOps0]
  after_results_simp
  rfl

/-- The scale at `(b, c', 0, 0)`: the factor at `(b, c')` times the weight of channel `c'`. -/
theorem scale_apply (c : Dev nD) (b c' : Fin 128) :
    (V m c main_v38 : S128x128x1x1.Idx → EReal) (ix4 b c' (0 : Fin 1) (0 : Fin 1))
      = invK m c (ix2 b c') * aW m c (ix1 c') := by
  rw [scale_eq m c, unit_axes_apply]
  show invK m c (ix2 b c') * chan (aW m c) (ix2 b c') = _
  rw [chan_apply]

/-- The shift at `(b, c', 0, 0)`: the bias of channel `c'` minus the mean at `(b, c')` times the scale. -/
theorem shift_apply (c : Dev nD) (b c' : Fin 128) :
    (V m c main_v39 : S128x128x1x1.Idx → EReal) (ix4 b c' (0 : Fin 1) (0 : Fin 1))
      = aB m c (ix1 c') - meanK m c (ix2 b c') * (invK m c (ix2 b c') * aW m c (ix1 c')) := by
  rw [shift_eq m c, unit_axes_apply]
  show chan (aB m c) (ix2 b c') - meanK m c (ix2 b c') * (invK m c (ix2 b c') * chan (aW m c) (ix2 b c')) = _
  rw [chan_apply, chan_apply]

end Cert.KernelIdeal.HostValue

end
-- ==== Proof.KerArray.lean ====
/-
  The kernel program's output array after the run, as one function of the arrays its region finds.

  The region runs one kernel over 64 grid points along the batch axis.  Point `t` reads block `t` of the input
  `x : [128, 128, 56, 56]` (two samples, all channels, the whole image) and blocks `t` of the two coefficient arrays
  `scale, shift : [128, 128, 1, 1]` (the same two samples, all channels), and writes back block `t` of the output: at
  sample `b`, channel `c`, pixel `(h, w)` of the block, `x (b, c, h, w) * scale (b, c, 0, 0) + shift (b, c, 0, 0)`.
  A block's element at block coordinate `j` sits in the array at `index × size + j` on every axis, and all four windows
  move together (block index `(t, 0, 0, 0)`), so what point `t` writes back is block `t` of ONE whole-array function;
  the 64 blocks tile the array (the index with sample `b` lies in block `b / 2`), so the array after the run is that
  function everywhere.
-/
import proofs.«156788_j76192719831881_2_alg».proof.Proof.Gen.KernelIdeal.Value
import Idealize.ShloMosaic.Lib.Pipeline.Value
import Idealize.ShloMosaic.Lib.ValueIdx

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The coefficient index under an array index: the sample and the channel kept, the two spatial axes at 0. -/
abbrev coef (i : S128x128x56x56.Idx) : S128x128x1x1.Idx := fun a => match a with
  | ⟨0, _⟩ => i 0 | ⟨1, _⟩ => i 1 | ⟨2, _⟩ => (0 : Fin 1) | ⟨3, _⟩ => (0 : Fin 1)

/-- At an index given by its four coordinates the coefficient index is (sample, channel, 0, 0). -/
theorem coef_ix4 (b c : Fin 128) (h w : Fin 56) :
    coef (ValueIdx.ix4 b c h w) = ValueIdx.ix4 b c (0 : Fin 1) (0 : Fin 1) := by
  funext a; match a with | ⟨0, _⟩ => rfl | ⟨1, _⟩ => rfl | ⟨2, _⟩ => rfl | ⟨3, _⟩ => rfl

/-- The zero offsets of a whole-block access, as the constant function. -/
theorem zero_offsets : (![0, 0, 0, 0] : Fin 4 → Nat) = fun _ => 0 := funext fun a => by fin_cases a <;> rfl

/-- What the body leaves in the output block, at a block index: input element times the sample's and channel's scale
    plus its shift, the loads through whole blocks being the blocks themselves. -/
theorem out_apply (x0 : Vec F S2x128x56x56 .f32) (x1 x2 : Vec F S2x128x1x1 .f32) (y : S2x128x56x56.Idx) :
    out0_3 x0 x1 x2 y = FloatOps.addf (FloatOps.mulf (x0 y) (x1 (Value.ix3_1 y))) (x2 (Value.ix3_2 y)) := by
  unfold out0_3
  rw [Value.canon3_eq]
  simp only [View.ld_unit_zero (S := S2x128x56x56) zero_offsets, View.ld_unit_zero (S := S2x128x1x1) zero_offsets]
  show FloatOps.addf (FloatOps.mulf (x0 (Value.ix3_0 y)) (x1 (Value.ix3_1 y))) (x2 (Value.ix3_2 y)) = _
  have e : Value.ix3_0 y = y := by
    funext a; match a with | ⟨0, _⟩ => rfl | ⟨1, _⟩ => rfl | ⟨2, _⟩ => rfl | ⟨3, _⟩ => rfl
  rw [e]

/-- The four index maps, decided over the 64 grid points: each input window's block index is the output window's on
    the batch axis and 0 on the other three; the output's batch block index is at most 63. -/
theorem idx_facts : ∀ t : Fin cfg0.N,
    win0_0.index t (0 : Fin 4) = win0_3.index t (0 : Fin 4) ∧ win0_0.index t (1 : Fin 4) = 0
    ∧ win0_0.index t (2 : Fin 4) = 0 ∧ win0_0.index t (3 : Fin 4) = 0
    ∧ win0_1.index t (0 : Fin 4) = win0_3.index t (0 : Fin 4) ∧ win0_1.index t (1 : Fin 4) = 0
    ∧ win0_1.index t (2 : Fin 4) = 0 ∧ win0_1.index t (3 : Fin 4) = 0
    ∧ win0_2.index t (0 : Fin 4) = win0_3.index t (0 : Fin 4) ∧ win0_2.index t (1 : Fin 4) = 0
    ∧ win0_2.index t (2 : Fin 4) = 0 ∧ win0_2.index t (3 : Fin 4) = 0
    ∧ win0_3.index t (0 : Fin 4) ≤ 63 ∧ win0_3.index t (1 : Fin 4) = 0
    ∧ win0_3.index t (2 : Fin 4) = 0 ∧ win0_3.index t (3 : Fin 4) = 0 :=
  (by decide +kernel : ∀ t : Fin grid0.N, _)

/-- Every batch block index 0..63 is some grid point's. -/
theorem idx_onto : ∀ q : Fin 64, ∃ t : Fin cfg0.N, win0_3.index t (0 : Fin 4) = q.val :=
  (by decide +kernel : ∀ q : Fin 64, ∃ t : Fin grid0.N, win0_3.index t (0 : Fin 4) = q.val)

/-- WHAT POINT `t` WRITES BACK is block `t` of the whole-array function: the input element times its sample's and
    channel's scale plus its shift, each input block read at the array index of the output block's element. -/
theorem flushed_eq (c : Dev nD) (t : Fin cfg0.N) :
    (dats m 0 c).flushed 3 t = ((cfg0.win 3).blk t).view.read (Elt F) (fun i : S128x128x56x56.Idx => FloatOps.addf (FloatOps.mulf (V m c main_arg0 i) (V m c main_v38 (coef i))) (V m c main_v39 (coef i))) := by
  rw [Value.flushed3]
  obtain ⟨a0, a1, a2, a3, b0, b1, b2, b3, c0, c1, c2, c3, d0, d1, d2, d3⟩ := idx_facts t
  funext j
  show out0_3 (iblk m c 0 t) (iblk m c 1 t) (iblk m c 2 t) j = _
  refine (out_apply _ _ _ j).trans ?_
  show FloatOps.addf (FloatOps.mulf (V m c main_arg0 (((cfg0.win 0).blk t).view.emb j)) (V m c main_v38 (((cfg0.win 1).blk t).view.emb (Value.ix3_1 j)))) (V m c main_v39 (((cfg0.win 2).blk t).view.emb (Value.ix3_2 j)))
    = FloatOps.addf (FloatOps.mulf (V m c main_arg0 (((cfg0.win 3).blk t).view.emb j)) (V m c main_v38 (coef (((cfg0.win 3).blk t).view.emb j)))) (V m c main_v39 (coef (((cfg0.win 3).blk t).view.emb j)))
  have h0 : ((cfg0.win 0).blk t).view.emb j = ((cfg0.win 3).blk t).view.emb j := by
    funext a; apply Fin.ext
    match a with
    | ⟨0, _⟩ => show win0_0.index t (0 : Fin 4) * 2 + 1 * (j 0).val = win0_3.index t (0 : Fin 4) * 2 + 1 * (j 0).val; omega
    | ⟨1, _⟩ => show win0_0.index t (1 : Fin 4) * 128 + 1 * (j 1).val = win0_3.index t (1 : Fin 4) * 128 + 1 * (j 1).val; omega
    | ⟨2, _⟩ => show win0_0.index t (2 : Fin 4) * 56 + 1 * (j 2).val = win0_3.index t (2 : Fin 4) * 56 + 1 * (j 2).val; omega
    | ⟨3, _⟩ => show win0_0.index t (3 : Fin 4) * 56 + 1 * (j 3).val = win0_3.index t (3 : Fin 4) * 56 + 1 * (j 3).val; omega
  have h1 : ((cfg0.win 1).blk t).view.emb (Value.ix3_1 j) = coef (((cfg0.win 3).blk t).view.emb j) := by
    funext a; apply Fin.ext
    match a with
    | ⟨0, _⟩ => show win0_1.index t (0 : Fin 4) * 2 + 1 * (j 0).val = win0_3.index t (0 : Fin 4) * 2 + 1 * (j 0).val; omega
    | ⟨1, _⟩ => show win0_1.index t (1 : Fin 4) * 128 + 1 * (j 1).val = win0_3.index t (1 : Fin 4) * 128 + 1 * (j 1).val; omega
    | ⟨2, _⟩ => show win0_1.index t (2 : Fin 4) * 1 + 1 * 0 = 0; omega
    | ⟨3, _⟩ => show win0_1.index t (3 : Fin 4) * 1 + 1 * 0 = 0; omega
  have h2 : ((cfg0.win 2).blk t).view.emb (Value.ix3_2 j) = coef (((cfg0.win 3).blk t).view.emb j) := by
    funext a; apply Fin.ext
    match a with
    | ⟨0, _⟩ => show win0_2.index t (0 : Fin 4) * 2 + 1 * (j 0).val = win0_3.index t (0 : Fin 4) * 2 + 1 * (j 0).val; omega
    | ⟨1, _⟩ => show win0_2.index t (1 : Fin 4) * 128 + 1 * (j 1).val = win0_3.index t (1 : Fin 4) * 128 + 1 * (j 1).val; omega
    | ⟨2, _⟩ => show win0_2.index t (2 : Fin 4) * 1 + 1 * 0 = 0; omega
    | ⟨3, _⟩ => show win0_2.index t (3 : Fin 4) * 1 + 1 * 0 = 0; omega
  rw [h0, h1, h2]

/-- An index of the array is in point `t`'s block iff each coordinate is in the block's range on its axis. -/
theorem mem_blk (t : Fin cfg0.N) (i : S128x128x56x56.Idx) :
    i ∈ ((cfg0.win 3).blk t).view.set ↔ ∀ a : Fin 4, win0_3.index t a * S2x128x56x56.size a ≤ (i a).val ∧ (i a).val < win0_3.index t a * S2x128x56x56.size a + S2x128x56x56.size a := by
  show i ∈ ((View.whole main_v40).slice (win0_3.rect t)).set ↔ _
  rw [View.set_slice_whole, Rect.mem_set_unit]
  exact Iff.rfl

/-- THE BLOCKS TILE THE ARRAY: the index with sample `b` lies in the block of the point whose batch block index is
    `b / 2` (two samples per block, all channels and the whole image in every block). -/
theorem cover (i : S128x128x56x56.Idx) :
    ∃ t : Fin cfg0.N, (cfg0.win 3).flush t = true ∧ i ∈ ((cfg0.win 3).blk t).view.set := by
  have hi0 : (i 0).val < 128 := (i 0).isLt
  have hi1 : (i 1).val < 128 := (i 1).isLt
  have hi2 : (i 2).val < 56 := (i 2).isLt
  have hi3 : (i 3).val < 56 := (i 3).isLt
  obtain ⟨t, ht⟩ := idx_onto ⟨(i 0).val / 2, by omega⟩
  have q0 : win0_3.index t (0 : Fin 4) = (i 0).val / 2 := ht
  obtain ⟨a0, a1, a2, a3, b0, b1, b2, b3, c0, c1, c2, c3, d0, d1, d2, d3⟩ := idx_facts t
  refine ⟨t, flush0_3 t, ?_⟩
  rw [mem_blk]
  intro a
  match a with
  | ⟨0, _⟩ => show win0_3.index t (0 : Fin 4) * 2 ≤ (i 0).val ∧ (i 0).val < win0_3.index t (0 : Fin 4) * 2 + 2; omega
  | ⟨1, _⟩ => show win0_3.index t (1 : Fin 4) * 128 ≤ (i 1).val ∧ (i 1).val < win0_3.index t (1 : Fin 4) * 128 + 128; omega
  | ⟨2, _⟩ => show win0_3.index t (2 : Fin 4) * 56 ≤ (i 2).val ∧ (i 2).val < win0_3.index t (2 : Fin 4) * 56 + 56; omega
  | ⟨3, _⟩ => show win0_3.index t (3 : Fin 4) * 56 ≤ (i 3).val ∧ (i 3).val < win0_3.index t (3 : Fin 4) * 56 + 56; omega

/-- THE ARRAY after the run, index by index: the input times the sample's and channel's scale plus its shift. -/
theorem final (c : Dev nD) : (dats m 0 c).arrAt 3 cfg0.N = fun i : S128x128x56x56.Idx => FloatOps.addf (FloatOps.mulf (V m c main_arg0 i) (V m c main_v38 (coef i))) (V m c main_v39 (coef i)) :=
  (dats m 0 c).arrAt_eq_of_cover 3 (fun i : S128x128x56x56.Idx => FloatOps.addf (FloatOps.mulf (V m c main_arg0 i) (V m c main_v38 (coef i))) (V m c main_v39 (coef i))) (fun t _ => flushed_eq m c t) cover

/-- The run, read: the output array at its function of the arrays the region finds, the arguments unchanged. -/
theorem run : θ_run defs (onTc (τ := τ) (main (F := F))) ⟨m, fun _ => 0, ρ⟩ fun r => ∀ c : Dev nD,
      r.2.mem ((c : Thread nD τ).loc main_v40) = (fun i : S128x128x56x56.Idx => FloatOps.addf (FloatOps.mulf (V m c main_arg0 i) (V m c main_v38 (coef i))) (V m c main_v39 (coef i)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.ArrayValue

end
-- ==== Proof.Bridge.lean ====
/-
  The two programs' results are one array, index by index, under the precondition.

  At sample `b`, channel `c`, pixel `(h, w)` the kernel program leaves `x * scale + shift` with
  `scale = inv * weight` and `shift = bias - mean * scale`, and the reference leaves `((x - mean) * inv) * weight + bias`,
  `mean` and `inv = rsqrt (var + eps)` being the same statistics of the same arguments at `(b, c)`.  The precondition
  makes every argument entry a real number and `var` nonnegative; so `mean` and `var` are real (half a real plus half a
  real), `var + eps` is a positive real and `inv` a real, and on real numbers the two forms agree by distributing
  `scale` over `x - mean`.
-/
import proofs.«156788_j76192719831881_2_alg».proof.Defs
import proofs.«156788_j76192719831881_2_alg».proof.Proof.Gen.Pre_finite_inputs
import proofs.«156788_j76192719831881_2_alg».proof.Proof.AffineLaw
import proofs.«156788_j76192719831881_2_alg».proof.Proof.PreFacts
import proofs.«156788_j76192719831881_2_alg».proof.Proof.RefRead
import proofs.«156788_j76192719831881_2_alg».proof.Proof.KerHost
import proofs.«156788_j76192719831881_2_alg».proof.Proof.KerArray

noncomputable section

namespace Cert.Bridge

open Cert.KernelIdeal Cert.KernelIdeal.Gen Cert.KernelIdeal.HostValue Cert.KernelIdeal.ArrayValue
open Idealize.ShloMosaic Idealize.ShloMosaic.TcCoe Idealize.SL.Sem Idealize.ShloMosaic.ValueIdx

variable (m : (ℓ : Loc nD τ sig) → Buf (Elt Ideal) ℓ)

/-- Under the precondition the two statistics are real numbers at every sample and channel: the mean as half a real
    plus half a real, the factor as the reciprocal square root of a nonnegative real plus the positive `eps`. -/
theorem stats_real (hpre : Cert.Pre_KernelIdeal m) (c : Dev nD) (b c' : Fin 128) :
    (∃ μ : ℝ, meanK m c (ix2 b c') = (μ : EReal)) ∧ (∃ s : ℝ, invK m c (ix2 b c') = (s : EReal)) := by
  obtain ⟨-, -, -, h4, h5, h6, h7, hv⟩ :=
    Cert.PreFacts.decode (aX m c) (aLab m c) (aW m c) (aB m c) (aGM m c) (aGV m c) (aCM m c) (aCV m c) (hpre c)
  constructor
  · obtain ⟨r, hr⟩ := Cert.ReferenceIdeal.RefValue.mean_apply (aLab m c) (aGM m c) (aCM m c) b c'
    obtain ⟨g, hg⟩ := h4 (ix1 c')
    obtain ⟨t, ht⟩ := h6 (ix2 r c')
    refine ⟨1 / 2 * g + 1 / 2 * t, ?_⟩
    rw [show meanK m c (ix2 b c') = _ from hr, hg, ht]
    exact Cert.AffineLaw.interp_real g t
  · obtain ⟨r, hr⟩ := Cert.ReferenceIdeal.RefValue.var_apply (aLab m c) (aGV m c) (aCV m c) b c'
    obtain ⟨g, hg⟩ := h5 (ix1 c')
    obtain ⟨t, ht⟩ := h7 (ix2 r c')
    have hvar : (Cert.ReferenceIdeal.Read.val_main_v27 (F := Ideal) (aLab m c) (aGV m c) (aCV m c) (ix2 b c') : EReal)
        = ((1 / 2 * g + 1 / 2 * t : ℝ) : EReal) := by
      rw [hr, hg, ht]; exact Cert.AffineLaw.interp_real g t
    have hnn : (0 : EReal) ≤ ((1 / 2 * g + 1 / 2 * t : ℝ) : EReal) := by
      rw [← hvar]; exact hv (ix2 b c')
    obtain ⟨s, hs⟩ := Cert.AffineLaw.rsqrt_guarded_real _ hnn
    refine ⟨s, ?_⟩
    rw [show invK m c (ix2 b c') = _ from
      Cert.ReferenceIdeal.RefValue.inv_apply (aLab m c) (aGV m c) (aCV m c) (ix2 b c'), hvar]
    exact hs

/-- THE BRIDGE: under the precondition the array the kernel program leaves is the reference's result of the same
    arguments, index by index. -/
theorem kernel_eq_reference (hpre : Cert.Pre_KernelIdeal m) (c : Dev nD) :
    @Eq (S128x128x56x56.Idx → EReal)
      (fun i : S128x128x56x56.Idx =>
        FloatOps.addf (F := Ideal) (φ := .f32)
          (FloatOps.mulf (F := Ideal) (φ := .f32) (V m c main_arg0 i) (V m c main_v38 (coef i))) (V m c main_v39 (coef i)))
      (Cert.ReferenceIdeal.Read.val_main_v42 (F := Ideal) (aX m c) (aLab m c) (aW m c) (aB m c) (aGM m c) (aGV m c)
          (aCM m c) (aCV m c)) := by
  funext i
  obtain ⟨b, c', h, w, rfl⟩ : ∃ (b c' : Fin 128) (h w : Fin 56), i = ix4 b c' h w := ⟨i 0, i 1, i 2, i 3, eq_ix4 i⟩
  obtain ⟨h0, h2, h3, -, -, -, -, -⟩ :=
    Cert.PreFacts.decode (aX m c) (aLab m c) (aW m c) (aB m c) (aGM m c) (aGV m c) (aCM m c) (aCV m c) (hpre c)
  obtain ⟨⟨μ, hμ⟩, ⟨s, hs⟩⟩ := stats_real m hpre c b c'
  obtain ⟨x, hx⟩ := h0 (ix4 b c' h w)
  obtain ⟨wt, hw⟩ := h2 (ix1 c')
  obtain ⟨bs, hb⟩ := h3 (ix1 c')
  rw [Cert.ReferenceIdeal.RefValue.result_apply, coef_ix4, scale_apply m c b c', shift_apply m c b c', V_main_arg0 m c]
  show aX m c (ix4 b c' h w) * (invK m c (ix2 b c') * aW m c (ix1 c'))
        + (aB m c (ix1 c') - meanK m c (ix2 b c') * (invK m c (ix2 b c') * aW m c (ix1 c')))
      = ((aX m c (ix4 b c' h w) - meanK m c (ix2 b c')) * invK m c (ix2 b c')) * aW m c (ix1 c') + aB m c (ix1 c')
  rw [hx, hw, hb, hμ, hs]
  exact Cert.AffineLaw.affine_law x μ s wt bs

end Cert.Bridge

end
-- ==== Proof.lean ====
/-
  A conditional batch normalization, applied as one affine map per sample and channel, against its plain form.

  The input `x : [128, 128, 56, 56]` is normalized per sample `b` and channel `c` with statistics interpolated half and half
  between global running statistics and the running statistics of the sample's class:
    `mean b c = 1/2 * global_mean c + 1/2 * class_mean (label b) c`,   `var b c` likewise,   `inv b c = rsqrt (var b c + eps)`.
  The reference computes `((x - mean) * inv) * weight + bias` at every pixel.  The kernel program folds the statistics on
  the host into `scale = inv * weight` and `shift = bias - mean * scale` and its one kernel, over 64 blocks of two samples,
  stores `x * scale + shift`.  On real numbers the two are equal by distributing `scale` over `x - mean`; on the extended
  reals that law needs every quantity finite, which the precondition provides: every float argument is finite and
  the interpolated variance is nonnegative, so `var + eps` is a positive real and its reciprocal square root a real.
  (Without the second conjunct the claim fails: `var + eps = 0` gives `inv = ⊤`, and with `x = mean = 1`, `weight = 1`,
  `bias = 0` the folded form is `⊤ + ⊥ = ⊥` while the plain form is `0 * ⊤ + 0 = 0`.)

  The frames of the two kernel programs and the kernel program's output array, block by block, are the generated
  modules'; the reference's run and its stages read at an index likewise.  Written by hand: the output array as one
  function of the arrays the kernel finds (Proof/KerArray.lean), those arrays read at an index (Proof/KerHost.lean),
  the reference read at an index down to the two statistics (Proof/RefRead.lean), what the precondition says
  (Proof/PreFacts.lean), the arithmetic (Proof/AffineLaw.lean), and their meeting (Proof/Bridge.lean).
-/
import proofs.«156788_j76192719831881_2_alg».proof.Defs
import proofs.«156788_j76192719831881_2_alg».proof.Proof.Gen.Kernel
import proofs.«156788_j76192719831881_2_alg».proof.Proof.Gen.Kernel.Skeleton
import proofs.«156788_j76192719831881_2_alg».proof.Proof.Gen.Kernel.Launch
import proofs.«156788_j76192719831881_2_alg».proof.Proof.Gen.Kernel.Points
import proofs.«156788_j76192719831881_2_alg».proof.Proof.Gen.Kernel.Frame
import proofs.«156788_j76192719831881_2_alg».proof.Proof.Gen.KernelIdeal
import proofs.«156788_j76192719831881_2_alg».proof.Proof.Gen.KernelIdeal.Skeleton
import proofs.«156788_j76192719831881_2_alg».proof.Proof.Gen.KernelIdeal.Launch
import proofs.«156788_j76192719831881_2_alg».proof.Proof.Gen.KernelIdeal.Points
import proofs.«156788_j76192719831881_2_alg».proof.Proof.Gen.KernelIdeal.Frame
import proofs.«156788_j76192719831881_2_alg».proof.Proof.Gen.ReferenceIdeal
import proofs.«156788_j76192719831881_2_alg».proof.Proof.Gen.Pre_finite_inputs
import proofs.«156788_j76192719831881_2_alg».proof.Proof.Gen.KernelIdeal.Value
import proofs.«156788_j76192719831881_2_alg».proof.Proof.Gen.ReferenceIdeal.Run
import proofs.«156788_j76192719831881_2_alg».proof.Proof.Gen.ReferenceIdeal.Read
import proofs.«156788_j76192719831881_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as they were. -/
theorem frame_kernel : Cert.frame_Kernel := fun m ρ _ => Cert.Kernel.Gen.frame m ρ

/-- So does the kernel program read at the extended reals. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel program was rewritten for the extended reals: nothing to preserve. -/
theorem preserves : Cert.preserves_Kernel_KernelIdeal := trivial

open Cert.KernelIdeal.HostValue in
/-- The kernel program's run under the precondition, its output array posted at the REFERENCE's result of the kernel
    program's own arguments: the array the 64 blocks leave is that function index by index (the bridge). -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c : Thread Cert.KernelIdeal.nD Cert.KernelIdeal.τ).loc Cert.KernelIdeal.main_v40)
            = Cert.ReferenceIdeal.Read.val_main_v42 (F := Ideal) (aX m c) (aLab m c) (aW m c) (aB m c) (aGM m c) (aGV m c)
                (aCM m c) (aCV m c)
        ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
        ∧ r.2.mem ((c : Thread Cert.KernelIdeal.nD Cert.KernelIdeal.τ).loc Cert.KernelIdeal.main_arg4) = m ((c : Thread Cert.KernelIdeal.nD Cert.KernelIdeal.τ).loc Cert.KernelIdeal.main_arg4)
        ∧ r.2.mem ((c : Thread Cert.KernelIdeal.nD Cert.KernelIdeal.τ).loc Cert.KernelIdeal.main_arg5) = m ((c : Thread Cert.KernelIdeal.nD Cert.KernelIdeal.τ).loc Cert.KernelIdeal.main_arg5)
        ∧ r.2.mem ((c : Thread Cert.KernelIdeal.nD Cert.KernelIdeal.τ).loc Cert.KernelIdeal.main_arg6) = m ((c : Thread Cert.KernelIdeal.nD Cert.KernelIdeal.τ).loc Cert.KernelIdeal.main_arg6)
        ∧ r.2.mem ((c : Thread Cert.KernelIdeal.nD Cert.KernelIdeal.τ).loc Cert.KernelIdeal.main_arg7) = m ((c : Thread Cert.KernelIdeal.nD Cert.KernelIdeal.τ).loc Cert.KernelIdeal.main_arg7) :=
  (θ_run Cert.KernelIdeal.defs _ _).mono
    (fun _ h c => ⟨(h c).1.trans (Cert.Bridge.kernel_eq_reference m hpre c), (h c).2⟩)
    (Cert.KernelIdeal.ArrayValue.run (F := Ideal) m ρ)

/-- From memories that agree on the arguments both programs end with the same result array: the kernel program at the
    reference's function of its arguments (`kernel_run`), the reference at that function of its own arguments (its
    generated run), which are the same arrays. -/
theorem algebraic : Cert.algebraic_KernelIdeal_ReferenceIdeal := by
  intro m ρ m' ρ' hpre hagree
  refine ⟨_, kernel_run m ρ hpre, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
